-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : FVec F S1600000 .f32) (main_arg2 : IVec S1600000 32) (main_arg3 : IVec S1600000 32) (main_arg4 : FVec F S128x128 .f32) (main_arg5 : FVec F S128 .f32) (main_arg6 : FVec F S128x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S50000x128 : Shape := ⟨2, ![50000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S1600000x128 : Shape := ⟨2, ![1600000, 128]⟩
abbrev S5000x128 : Shape := ⟨2, ![5000, 128]⟩
abbrev S5000x1 : Shape := ⟨2, ![5000, 1]⟩
abbrev S1x128 : Shape := ⟨2, ![1, 128]⟩

abbrev nBuf : Space → Nat
  | .hbm => 69
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S1600000, .f32⟩
  | .hbm, ⟨2, _⟩ => ⟨S1600000, .i32⟩
  | .hbm, ⟨3, _⟩ => ⟨S1600000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S50000, .f32⟩
  | .hbm, ⟨12, _⟩ => ⟨S1600000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S50000, .f32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S50000, .f32⟩
  | .hbm, ⟨22, _⟩ => ⟨S1600000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x1, .f32⟩
  | .hbm, ⟨30, _⟩ => ⟨S50000x128, .f32⟩
  | .hbm, ⟨31, _⟩ => ⟨S50000x128, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S1600000x1, .f32⟩
  | .hbm, ⟨42, _⟩ => ⟨S1600000x128, .f32⟩
  | .hbm, ⟨43, _⟩ => ⟨S1600000x128, .f32⟩
  | .hbm, ⟨44, _⟩ => ⟨S_, .f32⟩
  | .hbm, ⟨45, _⟩ => ⟨S50000x128, .f32⟩
  | .hbm, ⟨46, _⟩ => ⟨S1600000x1, .i32⟩
  | .hbm, ⟨47, _⟩ => ⟨S50000x128, .f32⟩
  | .hbm, ⟨48, _⟩ => ⟨S50000x128, .f32⟩
  | .hbm, ⟨49, _⟩ => ⟨S50000x1, .f32⟩
  | .hbm, ⟨50, _⟩ => ⟨S50000x128, .f32⟩
  | .hbm, ⟨51, _⟩ => ⟨S50000x128, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S1600000x1, .f32⟩
  | .hbm, ⟨62, _⟩ => ⟨S1600000x128, .f32⟩
  | .hbm, ⟨63, _⟩ => ⟨S1600000x128, .f32⟩
  | .hbm, ⟨64, _⟩ => ⟨S_, .f32⟩
  | .hbm, ⟨65, _⟩ => ⟨S50000x128, .f32⟩
  | .hbm, ⟨66, _⟩ => ⟨S1600000x1, .i32⟩
  | .hbm, ⟨67, _⟩ => ⟨S50000x128, .f32⟩
  | .hbm, ⟨68, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x1, .f32⟩
  | .local _ .vmem, ⟨13, _⟩ => ⟨S5000x1, .f32⟩
  | .local _ .vmem, ⟨14, _⟩ => ⟨S128x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_cst_3 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_4 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_c_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v30) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S5000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v31) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S5000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v48) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S1600000x128 : Shape := ⟨2, ![1600000, 128]⟩
abbrev S1x128 : Shape := ⟨2, ![1, 128]⟩

abbrev nBuf : Space → Nat
  | .hbm => 88
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S1600000, .f32⟩
  | .hbm, ⟨2, _⟩ => ⟨S1600000, .i32⟩
  | .hbm, ⟨3, _⟩ => ⟨S1600000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S50000, .f32⟩
  | .hbm, ⟨12, _⟩ => ⟨S1600000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S50000, .f32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S50000, .f32⟩
  | .hbm, ⟨22, _⟩ => ⟨S1600000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x128, .f32⟩
  | .hbm, ⟨30, _⟩ => ⟨S50000x128, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S1600000x1, .f32⟩
  | .hbm, ⟨41, _⟩ => ⟨S1600000x128, .f32⟩
  | .hbm, ⟨42, _⟩ => ⟨S1600000x128, .f32⟩
  | .hbm, ⟨43, _⟩ => ⟨S_, .f32⟩
  | .hbm, ⟨44, _⟩ => ⟨S50000x128, .f32⟩
  | .hbm, ⟨45, _⟩ => ⟨S1600000x1, .i32⟩
  | .hbm, ⟨46, _⟩ => ⟨S50000x128, .f32⟩
  | .hbm, ⟨47, _⟩ => ⟨S50000x1, .f32⟩
  | .hbm, ⟨48, _⟩ => ⟨S50000x128, .f32⟩
  | .hbm, ⟨49, _⟩ => ⟨S50000x128, .f32⟩
  | .hbm, ⟨50, _⟩ => ⟨S50000x128, .f32⟩
  | .hbm, ⟨51, _⟩ => ⟨S1x128, .f32⟩
  | .hbm, ⟨52, _⟩ => ⟨S50000x128, .f32⟩
  | .hbm, ⟨53, _⟩ => ⟨S50000x128, .f32⟩
  | .hbm, ⟨54, _⟩ => ⟨S_, .f32⟩
  | .hbm, ⟨55, _⟩ => ⟨S50000x128, .f32⟩
  | .hbm, ⟨56, _⟩ => ⟨S50000x128, .f32⟩
  | .hbm, ⟨57, _⟩ => ⟨S50000x128, .f32⟩
  | .hbm, ⟨58, _⟩ => ⟨S50000x1, .f32⟩
  | .hbm, ⟨59, _⟩ => ⟨S50000x128, .f32⟩
  | .hbm, ⟨60, _⟩ => ⟨S50000x128, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x128, .f32⟩
  | .hbm, ⟨70, _⟩ => ⟨S1600000x1, .f32⟩
  | .hbm, ⟨71, _⟩ => ⟨S1600000x128, .f32⟩
  | .hbm, ⟨72, _⟩ => ⟨S1600000x128, .f32⟩
  | .hbm, ⟨73, _⟩ => ⟨S_, .f32⟩
  | .hbm, ⟨74, _⟩ => ⟨S50000x128, .f32⟩
  | .hbm, ⟨75, _⟩ => ⟨S1600000x1, .i32⟩
  | .hbm, ⟨76, _⟩ => ⟨S50000x128, .f32⟩
  | .hbm, ⟨77, _⟩ => ⟨S50000x1, .f32⟩
  | .hbm, ⟨78, _⟩ => ⟨S50000x128, .f32⟩
  | .hbm, ⟨79, _⟩ => ⟨S50000x128, .f32⟩
  | .hbm, ⟨80, _⟩ => ⟨S50000x128, .f32⟩
  | .hbm, ⟨81, _⟩ => ⟨S1x128, .f32⟩
  | .hbm, ⟨82, _⟩ => ⟨S50000x128, .f32⟩
  | .hbm, ⟨83, _⟩ => ⟨S50000x128, .f32⟩
  | .hbm, ⟨84, _⟩ => ⟨S_, .f32⟩
  | .hbm, ⟨85, _⟩ => ⟨S50000x128, .f32⟩
  | .hbm, ⟨86, _⟩ => ⟨S50000x128, .f32⟩
  | .hbm, ⟨87, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_cst_3 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_4 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_call0_cst : Ref sig .tc := ⟨.hbm, 54, rfl⟩
abbrev main_call0_v0 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_7 : Ref sig .tc := ⟨.hbm, 61, rfl⟩
abbrev main_v42 : Ref sig .tc := ⟨.hbm, 62, rfl⟩
abbrev main_v43 : Ref sig .tc := ⟨.hbm, 63, rfl⟩
abbrev main_c_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_call1_cst : Ref sig .tc := ⟨.hbm, 84, rfl⟩
abbrev main_call1_v0 : Ref sig .tc := ⟨.hbm, 85, rfl⟩
abbrev main_v62 : Ref sig .tc := ⟨.hbm, 86, rfl⟩
abbrev main_v63 : Ref sig .tc := ⟨.hbm, 87, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x128_S50000x128_1_0_0_1_n_n_wf : DotDims.WF S50000x128 S128x128 S50000x128 [1] [0] [0] [1] [] []

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel's run with its result buffer named.

  @main is four segments: the host operations before the first call, the first call, the host operations between the
  calls, the second call. The generated frame walks the buffer contents through these segments (W0 at launch, W1 after the
  first host stretch, W2 after the first call, W3 after the second host stretch, W4 after the second call) and concludes
  that the arguments end as launched. The same walk also knows every other unscoped buffer at the end: it holds W4's
  contents. Stated here for the result buffer: every weakly fair execution terminates, nothing faulting, with the result
  at W4's contents and the arguments unchanged.
-/
import proofs.«122249_j81286551044232_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main: the result buffer ends at the last boundary's contents, the arguments as launched. -/
theorem run_named : θ_run defs (onTc (τ := τ) (main (F := F))) ⟨m, fun _ => 0, ρ⟩ (fun r => ∀ c : Dev nD,
      r.2.mem ((c.tc : Thread nD τ).loc main_v48) = W4 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v48 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Run

end
-- ==== Proof.LibMatmulPlain.lean ====
/-
  A plain matrix product into a zero accumulator, read at an index, at the ideal values.

  For an m×k matrix A and a k×n matrix B the product into the zero accumulator has, at row a and column b, the entry
  ∑ c, A(a, c) · B(c, b): the accumulator contributes the extended real 0, and the contraction index of the plain
  dimension numbers is the one coordinate c. The host's product of the same two matrices is the same sum, so the
  statement follows from the library's reading of the host product.
-/
import Idealize.ShloMosaic.PureOps.Ideal.Laws
import Idealize.ShloMosaic.Lib.ValueIdx
import Idealize.ShloMosaic.Lib.StackMember

namespace Cert.LibMatmulPlain

open Idealize.ShloMosaic Idealize.ShloMosaic.ValueIdx

/-- A plain m×k by k×n product into the zero accumulator reads, at (a, b), the sum over the contracted coordinate c of
    A(a, c) · B(c, b). At the ideal values, whatever the formats of the two operands. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

end Cert.LibMatmulPlain
-- ==== Proof.LibLinearLayer.lean ====
/-
  A linear layer read at an index, at the ideal values.

  For a matrix x (m rows, k columns), a weight matrix W (k rows, n columns) and a bias row β, the layer's value at row a
  and column q is (∑ c, x(a, c) · W(c, q)) + β(q). Two spellings of it are read here and shown to be this one function:
  the product of the two matrices rounded to a narrower format (which, at the ideal values, changes nothing) into a
  zero accumulator, plus the bias row broadcast over the rows; and the host's product of the two matrices plus the bias
  vector broadcast twice, first to one row and then over the rows. A block of consecutive rows of the layer's value is
  the layer applied to the same rows of x.
-/
import Idealize.ShloMosaic.PureOps.Ideal.Laws
import Idealize.ShloMosaic.Lib.ValueIdx
import Idealize.ShloMosaic.Lib.ValueLayout
import Idealize.ShloMosaic.Lib.StackMember
import proofs.«122249_j81286551044232_1_alg».proof.Proof.LibMatmulPlain

noncomputable section

namespace Cert.LibLinearLayer

open Idealize.ShloMosaic Idealize.ShloMosaic.ValueIdx

variable {m k n : Nat}

/-- The linear layer: at row a and column q, the sum over c of x(a, c) · W(c, q), plus the bias at column q. -/
def lin (x : FVec Ideal ⟨2, ![m, k]⟩ .f32) (W : FVec Ideal ⟨2, ![k, n]⟩ .f32) (β : Fin n → EReal) :
    FVec Ideal ⟨2, ![m, n]⟩ .f32 :=
  fun i => (∑ c : Fin k, x (ix2 (show Fin m from i 0) c) * W (ix2 c (show Fin n from i 1))) + β (show Fin n from i 1)

theorem lin_apply (x : FVec Ideal ⟨2, ![m, k]⟩ .f32) (W : FVec Ideal ⟨2, ![k, n]⟩ .f32) (β : Fin n → EReal)
    (a : Fin m) (q : Fin n) :
    lin x W β (ix2 a q) = (∑ c : Fin k, x (ix2 a c) * W (ix2 c q)) + β q := rfl

/-- The kernel's spelling: both operands rounded to bf16 (the identity at the ideal values), multiplied into a zero
    accumulator, and the one bias row broadcast over the rows and added. -/
theorem body_eq_lin (D : DotDims ⟨2, ![m, k]⟩ ⟨2, ![k, n]⟩ ⟨2, ![m, n]⟩) (hD : D = DotDims.plain m k n)
    (hbits : FTy.bits .bf16 < FTy.bits .f32)
    (hb : (⟨2, ![1, n]⟩ : Shape).Broadcasts ⟨2, ![m, n]⟩)
    (A : FVec Ideal ⟨2, ![m, k]⟩ .f32) (B : FVec Ideal ⟨2, ![k, n]⟩ .f32) (bias : FVec Ideal ⟨2, ![1, n]⟩ .f32) :
    addf (matmul D none (truncf .bf16 A hbits) (truncf .bf16 B hbits) (constant (F := Ideal) ⟨2, ![m, n]⟩ .f32 0x00000000#32))
        (broadcastTo ⟨2, ![m, n]⟩ bias hb)
      = lin A B (fun q => bias (ix2 (0 : Fin 1) q)) := by
  subst hD
  funext j
  obtain ⟨a, q, rfl⟩ : ∃ (a : Fin m) (q : Fin n), j = ix2 a q := ⟨j 0, j 1, eq_ix2 j⟩
  rw [lin_apply, addf_apply, Cert.LibMatmulPlain.matmul_plain_zero_apply, broadcastTo_1b_ab_apply]
  rfl

/-- The host's spelling: the product of the two matrices, plus the bias vector made a row and then broadcast over the
    rows. -/
theorem host_eq_lin (D : DotDims ⟨2, ![m, k]⟩ ⟨2, ![k, n]⟩ ⟨2, ![m, n]⟩) (hD : D = DotDims.plain m k n)
    (h1 : (⟨1, ![n]⟩ : Shape).BroadcastsInDim ⟨2, ![1, n]⟩ ![1])
    (h2 : (⟨2, ![1, n]⟩ : Shape).BroadcastsInDim ⟨2, ![m, n]⟩ ![0, 1])
    (x : FVec Ideal ⟨2, ![m, k]⟩ .f32) (W : FVec Ideal ⟨2, ![k, n]⟩ .f32) (b : FVec Ideal ⟨1, ![n]⟩ .f32) :
    addf (Host.dotGeneral D none x W)
        (broadcastInDim ⟨2, ![m, n]⟩ ![0, 1] h2 (broadcastInDim ⟨2, ![1, n]⟩ ![1] h1 b))
      = lin x W (fun q => b (ix1 q)) := by
  subst hD
  funext j
  obtain ⟨a, q, rfl⟩ : ∃ (a : Fin m) (q : Fin n), j = ix2 a q := ⟨j 0, j 1, eq_ix2 j⟩
  rw [lin_apply, addf_apply, StackMember.dotGeneral_plain_apply]
  congr 1
  rw [broadcastInDim_apply ![0, 1] h2 _ (ix2 a q) (ix2 (0 : Fin 1) q) (fun ax => by
    match ax with
    | ⟨0, _⟩ => show (0 : Nat) = if (1 : Nat) = 1 then 0 else a.val; rw [if_pos rfl]
    | ⟨1, _⟩ =>
      show q.val = if n = 1 then 0 else q.val
      split
      · have := q.isLt; omega
      · rfl)]
  exact broadcastInDim_apply ![1] h1 b (ix2 (0 : Fin 1) q) (ix1 q) (fun ax => by
    match ax with
    | ⟨0, _⟩ =>
      show q.val = if n = 1 then 0 else q.val
      split
      · have := q.isLt; omega
      · rfl)

/-- Rows T·r … T·r + r − 1 of the layer's value are the layer applied to the same rows of x: if a block xb of r rows
    holds those rows of x, the layer of the block at (a, q) is the layer of x at (T·r + a, q). -/
theorem lin_rows {M r : Nat} (X : FVec Ideal ⟨2, ![M, k]⟩ .f32) (xb : FVec Ideal ⟨2, ![r, k]⟩ .f32)
    (W : FVec Ideal ⟨2, ![k, n]⟩ .f32) (β : Fin n → EReal) (a : Fin r) (A : Fin M) (q : Fin n)
    (hx : ∀ c : Fin k, xb (ix2 a c) = X (ix2 A c)) :
    lin xb W β (ix2 a q) = lin X W β (ix2 A q) := by
  rw [lin_apply, lin_apply]
  congr 1
  exact Finset.sum_congr rfl fun c _ => by rw [hx c]

end Cert.LibLinearLayer

end
-- ==== Proof.LibRowStat.lean ====
/-
  Rows of a rank-2 array: the keepdims layouts of a row statistic, read at an index written by coordinates.

  A statistic of each row of an [a, b] array (a sum over the b lanes) is an [a] vector; to be combined with the array again it
  is cast to an [a, 1] column and the column is broadcast back over the b lanes. Each of these reads its operand at the row
  coordinate alone; the lane sum ranges over the lane coordinate.
-/
import Idealize.ShloMosaic.PureOps.Ideal.Laws
import Idealize.ShloMosaic.Lib.ValueIdx
import Idealize.ShloMosaic.Lib.Pipeline.Value

namespace Cert.LibRowStat

open Idealize.ShloMosaic Idealize.ShloMosaic.ValueIdx

variable {α : Type}

/-- An `[a, 1]` column broadcast to `[a, b]` reads, at `(p, q)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => exact (if_pos rfl).symm

/-- The sum of an `[a, b]` array over its lanes reads, at row `p`, the sum over `k` of the array at `(p, k)`. At the ideal
    values. -/
theorem sum_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext
      (match ax with | ⟨0, _⟩ => rfl | ⟨1, _⟩ => rfl)))

end Cert.LibRowStat
-- ==== Proof.LibGcnDense.lean ====
/-
  The dense tail of a graph-convolution layer, read at an index, at the ideal values.

  For an aggregated feature matrix agg (M rows, k columns), a column of per-row scales col (M rows), a weight matrix W
  (k rows, n columns), a bias row β and a residual matrix h (M rows, n columns), the tail's value at row p and column q is

      max( (∑ c, (agg(p, c) · col(p)) · W(c, q)) + β(q), 0 ) + h(p, q).

  Two spellings of it are read here and shown to be this one function: the one that scales the rows by a broadcast
  column, rounds both factors to a narrower format (which changes nothing at the ideal values), multiplies into a zero
  accumulator, adds the bias row, clamps below at a splat zero and adds the residual; and the host's, with the host's
  matrix product, the bias vector broadcast twice and the zero a broadcast scalar constant. A block of consecutive rows
  of the tail's value is the tail applied to the same rows of agg, col and h.
-/
import Idealize.ShloMosaic.PureOps.Ideal.Laws
import Idealize.ShloMosaic.Lib.ValueIdx
import Idealize.ShloMosaic.Lib.ValueLayout
import Idealize.ShloMosaic.Lib.Pipeline.Value
import proofs.«122249_j81286551044232_1_alg».proof.Proof.LibLinearLayer
import proofs.«122249_j81286551044232_1_alg».proof.Proof.LibRowStat

noncomputable section

namespace Cert.LibGcnDense

open Idealize.ShloMosaic Idealize.ShloMosaic.ValueIdx Cert.LibLinearLayer

variable {M k n : Nat}

/-- The rows of agg scaled by the column col: at (p, c), agg(p, c) · col(p). -/
def scaleRows (agg : FVec Ideal ⟨2, ![M, k]⟩ .f32) (col : FVec Ideal ⟨2, ![M, 1]⟩ .f32) : FVec Ideal ⟨2, ![M, k]⟩ .f32 :=
  fun j => agg j * col (ix2 (show Fin M from j 0) (0 : Fin 1))

/-- The dense tail: the linear layer of the scaled rows, clamped below at zero, plus the residual. -/
def dense (agg : FVec Ideal ⟨2, ![M, k]⟩ .f32) (col : FVec Ideal ⟨2, ![M, 1]⟩ .f32) (W : FVec Ideal ⟨2, ![k, n]⟩ .f32)
    (β : Fin n → EReal) (h : FVec Ideal ⟨2, ![M, n]⟩ .f32) : FVec Ideal ⟨2, ![M, n]⟩ .f32 :=
  fun i => max (lin (scaleRows agg col) W β i) (Ideal.ofBits .f32 0x00000000#32) + h i

theorem dense_apply (agg : FVec Ideal ⟨2, ![M, k]⟩ .f32) (col : FVec Ideal ⟨2, ![M, 1]⟩ .f32) (W : FVec Ideal ⟨2, ![k, n]⟩ .f32)
    (β : Fin n → EReal) (h : FVec Ideal ⟨2, ![M, n]⟩ .f32) (i : (⟨2, ![M, n]⟩ : Shape).Idx) :
    dense agg col W β h i = max (lin (scaleRows agg col) W β i) (Ideal.ofBits .f32 0x00000000#32) + h i := rfl

/-- Scaling by the column broadcast over the lanes (the vector spelling) is the row scaling. -/
theorem mulf_broadcastTo_eq (agg : FVec Ideal ⟨2, ![M, k]⟩ .f32) (col : FVec Ideal ⟨2, ![M, 1]⟩ .f32)
    (hb : (⟨2, ![M, 1]⟩ : Shape).Broadcasts ⟨2, ![M, k]⟩) :
    mulf agg (broadcastTo ⟨2, ![M, k]⟩ col hb) = scaleRows agg col := by
  funext j
  obtain ⟨p, c, rfl⟩ : ∃ (p : Fin M) (c : Fin k), j = ix2 p c := ⟨j 0, j 1, eq_ix2 j⟩
  rw [mulf_apply, Cert.LibRowStat.broadcastTo_a1_ab_apply]
  rfl

/-- Scaling by the column broadcast over the lanes (the host spelling) is the row scaling. -/
theorem mulf_broadcastInDim_eq (agg : FVec Ideal ⟨2, ![M, k]⟩ .f32) (col : FVec Ideal ⟨2, ![M, 1]⟩ .f32)
    (hb : (⟨2, ![M, 1]⟩ : Shape).BroadcastsInDim ⟨2, ![M, k]⟩ ![0, 1]) :
    mulf agg (broadcastInDim ⟨2, ![M, k]⟩ ![0, 1] hb col) = scaleRows agg col := by
  funext j
  obtain ⟨p, c, rfl⟩ : ∃ (p : Fin M) (c : Fin k), j = ix2 p c := ⟨j 0, j 1, eq_ix2 j⟩
  rw [mulf_apply, broadcastInDim_apply ![0, 1] hb col (ix2 p c) (ix2 p (0 : Fin 1)) (fun ax => by
    match ax with
    | ⟨0, _⟩ =>
      show p.val = if M = 1 then 0 else p.val
      split
      · have := p.isLt; omega
      · rfl
    | ⟨1, _⟩ => exact (if_pos rfl).symm)]
  rfl

/-- The kernel's spelling of the tail. -/
theorem body_eq_dense (D : DotDims ⟨2, ![M, k]⟩ ⟨2, ![k, n]⟩ ⟨2, ![M, n]⟩) (hD : D = DotDims.plain M k n)
    (hbits : FTy.bits .bf16 < FTy.bits .f32)
    (hcol : (⟨2, ![M, 1]⟩ : Shape).Broadcasts ⟨2, ![M, k]⟩)
    (hsc : (⟨1, ![n]⟩ : Shape).ShapeCasts ⟨2, ![1, n]⟩)
    (hb : (⟨2, ![1, n]⟩ : Shape).Broadcasts ⟨2, ![M, n]⟩)
    (agg : FVec Ideal ⟨2, ![M, k]⟩ .f32) (col : FVec Ideal ⟨2, ![M, 1]⟩ .f32) (W : FVec Ideal ⟨2, ![k, n]⟩ .f32)
    (b : FVec Ideal ⟨1, ![n]⟩ .f32) (h : FVec Ideal ⟨2, ![M, n]⟩ .f32) :
    addf (maximumf
        (addf (matmul D none (truncf .bf16 (mulf agg (broadcastTo ⟨2, ![M, k]⟩ col hcol)) hbits) (truncf .bf16 W hbits)
            (constant (F := Ideal) ⟨2, ![M, n]⟩ .f32 0x00000000#32))
          (broadcastTo ⟨2, ![M, n]⟩ (shapeCast ⟨2, ![1, n]⟩ b hsc) hb))
        (broadcast ⟨2, ![M, n]⟩ (Scalar.ofBits (F := Ideal) .f32 0x00000000#32))) h
      = dense agg col W (fun q => b (ix1 q)) h := by
  rw [body_eq_lin D hD hbits hb, mulf_broadcastTo_eq]
  funext i
  rw [dense_apply, addf_apply, maximumf_apply, broadcast_apply]
  have hβ : (fun q : Fin n => shapeCast ⟨2, ![1, n]⟩ b hsc (ix2 (0 : Fin 1) q)) = fun q => b (ix1 q) :=
    funext fun q => shapeCast_a_1a_apply b hsc 0 q
  rw [hβ]
  rfl

/-- The host's spelling of the tail. -/
theorem host_eq_dense (D : DotDims ⟨2, ![M, k]⟩ ⟨2, ![k, n]⟩ ⟨2, ![M, n]⟩) (hD : D = DotDims.plain M k n)
    (hcol : (⟨2, ![M, 1]⟩ : Shape).BroadcastsInDim ⟨2, ![M, k]⟩ ![0, 1])
    (h1 : (⟨1, ![n]⟩ : Shape).BroadcastsInDim ⟨2, ![1, n]⟩ ![1])
    (h2 : (⟨2, ![1, n]⟩ : Shape).BroadcastsInDim ⟨2, ![M, n]⟩ ![0, 1])
    (h0 : (⟨0, ![]⟩ : Shape).BroadcastsInDim ⟨2, ![M, n]⟩ ![])
    (agg : FVec Ideal ⟨2, ![M, k]⟩ .f32) (col : FVec Ideal ⟨2, ![M, 1]⟩ .f32) (W : FVec Ideal ⟨2, ![k, n]⟩ .f32)
    (b : FVec Ideal ⟨1, ![n]⟩ .f32) (h : FVec Ideal ⟨2, ![M, n]⟩ .f32) :
    addf (maximumf
        (addf (Host.dotGeneral D none (mulf agg (broadcastInDim ⟨2, ![M, k]⟩ ![0, 1] hcol col)) W)
          (broadcastInDim ⟨2, ![M, n]⟩ ![0, 1] h2 (broadcastInDim ⟨2, ![1, n]⟩ ![1] h1 b)))
        (broadcastInDim ⟨2, ![M, n]⟩ ![] h0 (constant (F := Ideal) ⟨0, ![]⟩ .f32 0x00000000#32))) h
      = dense agg col W (fun q => b (ix1 q)) h := by
  rw [host_eq_lin D hD h1 h2, mulf_broadcastInDim_eq]
  funext i
  rw [dense_apply, addf_apply, maximumf_apply,
    broadcastInDim_apply ![] h0 _ i ix0 (fun a => a.elim0), constant_apply]

/-- Rows of the tail's value are the tail of the same rows: if row a of the blocks xb, colb, hb holds row A of
    X, COL, H, the tail of the blocks at (a, q) is the tail of the arrays at (A, q). -/
theorem dense_rows {r : Nat} (X : FVec Ideal ⟨2, ![M, k]⟩ .f32) (xb : FVec Ideal ⟨2, ![r, k]⟩ .f32)
    (COL : FVec Ideal ⟨2, ![M, 1]⟩ .f32) (colb : FVec Ideal ⟨2, ![r, 1]⟩ .f32)
    (W : FVec Ideal ⟨2, ![k, n]⟩ .f32) (β : Fin n → EReal)
    (H : FVec Ideal ⟨2, ![M, n]⟩ .f32) (hb : FVec Ideal ⟨2, ![r, n]⟩ .f32)
    (a : Fin r) (A : Fin M) (q : Fin n)
    (hx : ∀ c : Fin k, xb (ix2 a c) = X (ix2 A c))
    (hcol : colb (ix2 a (0 : Fin 1)) = COL (ix2 A (0 : Fin 1)))
    (hh : hb (ix2 a q) = H (ix2 A q)) :
    dense xb colb W β hb (ix2 a q) = dense X COL W β H (ix2 A q) := by
  rw [dense_apply, dense_apply, hh, lin_apply, lin_apply]
  congr 3
  refine Finset.sum_congr rfl fun c _ => ?_
  show xb (ix2 a c) * colb (ix2 a (0 : Fin 1)) * _ = X (ix2 A c) * COL (ix2 A (0 : Fin 1)) * _
  rw [hx c, hcol]

/-- A block of r consecutive rows, the T-th one, of the tail's value is the tail of the same rows: if the blocks xb, colb, hb
    hold rows T·r … T·r + r − 1 of X, COL, H, the tail of the blocks at j is the tail of the arrays at i whenever i is j moved
    down by T·r rows. -/
theorem dense_block {r : Nat} (X : FVec Ideal ⟨2, ![M, k]⟩ .f32) (xb : FVec Ideal ⟨2, ![r, k]⟩ .f32)
    (COL : FVec Ideal ⟨2, ![M, 1]⟩ .f32) (colb : FVec Ideal ⟨2, ![r, 1]⟩ .f32)
    (W : FVec Ideal ⟨2, ![k, n]⟩ .f32) (β : Fin n → EReal)
    (H : FVec Ideal ⟨2, ![M, n]⟩ .f32) (hb : FVec Ideal ⟨2, ![r, n]⟩ .f32) (T : Nat)
    (hx : ∀ (y : (⟨2, ![r, k]⟩ : Shape).Idx) (z : (⟨2, ![M, k]⟩ : Shape).Idx),
      (z 0).val = T * r + (y 0).val → (z 1).val = (y 1).val → xb y = X z)
    (hcol : ∀ (y : (⟨2, ![r, 1]⟩ : Shape).Idx) (z : (⟨2, ![M, 1]⟩ : Shape).Idx),
      (z 0).val = T * r + (y 0).val → (z 1).val = (y 1).val → colb y = COL z)
    (hh : ∀ (y : (⟨2, ![r, n]⟩ : Shape).Idx) (z : (⟨2, ![M, n]⟩ : Shape).Idx),
      (z 0).val = T * r + (y 0).val → (z 1).val = (y 1).val → hb y = H z)
    (j : (⟨2, ![r, n]⟩ : Shape).Idx) (i : (⟨2, ![M, n]⟩ : Shape).Idx)
    (hi0 : (i 0).val = T * r + (j 0).val) (hi1 : (i 1).val = (j 1).val) :
    dense xb colb W β hb j = dense X COL W β H i := by
  obtain ⟨a, q, rfl⟩ : ∃ (a : Fin r) (q : Fin n), j = ix2 a q := ⟨j 0, j 1, eq_ix2 j⟩
  obtain ⟨A, q', rfl⟩ : ∃ (A : Fin M) (q' : Fin n), i = ix2 A q' := ⟨i 0, i 1, eq_ix2 i⟩
  have hA : A.val = T * r + a.val := hi0
  have hq : q' = q := Fin.ext hi1
  subst hq
  exact dense_rows X xb COL colb W β H hb a A q' (fun c => hx _ _ hA rfl) (hcol _ _ hA rfl) (hh _ _ hA rfl)

end Cert.LibGcnDense

end
-- ==== Proof.Region0.lean ====
/-
  Call 0 of the idealized kernel: its output array after the call, as one function of the arrays it reads.

  The call runs the dense tail of a graph-convolution layer over ten blocks of 5000 rows. At grid point t the body reads
  rows 5000·t … 5000·t + 4999 of the aggregated features, of the column of row scales and of the residual, the whole weight
  matrix and the whole bias vector, and writes the tail of those rows to the same rows of the output. The ten blocks
  tile the 50000 rows, so after the call the output array is the tail of the whole arrays. Stated for any buffer
  contents V at the call's entry.
-/
import proofs.«122249_j81286551044232_1_alg».proof.Proof.Gen.KernelIdeal.Frame
import proofs.«122249_j81286551044232_1_alg».proof.Proof.LibGcnDense
import Idealize.ShloMosaic.Lib.Pipeline.Value
import Idealize.ShloMosaic.Lib.Tactic

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)
open Cert.LibGcnDense

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The output array after the call: the dense tail of the arrays the call reads, as the call finds them. -/
def G (c : Dev nD) : S50000x128.Idx → EReal :=
  dense (M := 50000) (k := 128) (n := 128) (V c main_v30) (V c main_v14) (V c main_arg4) (fun q => (V c main_arg5 : S128.Idx → EReal) (ix1 q)) (V c main_arg0)

/-- The body's stored value is the dense tail of the five loaded blocks. -/
theorem pay_eq (x0 : Vec Ideal S5000x128 .f32) (x1 : Vec Ideal S5000x1 .f32) (x2 : Vec Ideal S128x128 .f32)
    (x3 : Vec Ideal S128 .f32) (x4 : Vec Ideal S5000x128 .f32) :
    k0_pay1 x0 x1 x2 x3 x4 = dense (M := 5000) (k := 128) (n := 128) x0 x1 x2 (fun q => x3 (ix1 q)) x4 := by
  unfold k0_pay1
  simp only [shapeCast_self]
  exact body_eq_dense dot_S5000x128_S128x128_S5000x128_1_0_0_1_n_n rfl bitsLt_bf16_f32 broadcasts_S5000x1_S5000x128
    shapeCasts_S128_S1x128 broadcasts_S1x128_S5000x128 x0 x1 x2 x3 x4

/-- The printed index maps over the grid: the row-blocked windows sit at block row t, the whole-array windows at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Every block row of the output is some point's. -/
theorem idx_onto : ∀ q0 : Fin 10, ∃ t : Fin cfg0.N, win0_5.index t = ![q0.val, 0] :=
  (by decide +kernel : ∀ q0 : Fin 10, ∃ t : Fin grid0.N, win0_5.index t = ![q0.val, 0])

/-- The aggregated features' block at point t is rows 5000·t … of the array. -/
theorem read_0 (c : Dev nD) (t : Fin cfg0.N) (y : S5000x128.Idx) (z : S50000x128.Idx)
    (h0 : (z 0).val = t.val * 5000 + (y 0).val) (h1 : (z 1).val = (y 1).val) :
    (iblk0 V c 0 t : S5000x128.Idx → EReal) y = (V c main_v30 : S50000x128.Idx → EReal) z := by
  obtain ⟨e00, e01, -⟩ := idx_facts t
  unfold iblk0
  rw [View.read_apply]
  show V c main_v30 (((cfg0.win 0).blk t).view.emb y) = V c main_v30 z
  congr 1
  funext a
  apply Fin.ext
  match a with
  | ⟨0, _⟩ => show win0_0.index t (0 : Fin 2) * 5000 + 1 * (y 0).val = (z 0).val; rw [e00, h0]; omega
  | ⟨1, _⟩ => show win0_0.index t (1 : Fin 2) * 128 + 1 * (y 1).val = (z 1).val; rw [e01, h1]; omega

/-- The scale column's block at point t is rows 5000·t … of the column. -/
theorem read_1 (c : Dev nD) (t : Fin cfg0.N) (y : S5000x1.Idx) (z : S50000x1.Idx)
    (h0 : (z 0).val = t.val * 5000 + (y 0).val) (h1 : (z 1).val = (y 1).val) :
    (iblk0 V c 1 t : S5000x1.Idx → EReal) y = (V c main_v14 : S50000x1.Idx → EReal) z := by
  obtain ⟨-, -, e10, e11, -⟩ := idx_facts t
  unfold iblk0
  rw [View.read_apply]
  show V c main_v14 (((cfg0.win 1).blk t).view.emb y) = V c main_v14 z
  congr 1
  funext a
  apply Fin.ext
  match a with
  | ⟨0, _⟩ => show win0_1.index t (0 : Fin 2) * 5000 + 1 * (y 0).val = (z 0).val; rw [e10, h0]; omega
  | ⟨1, _⟩ => show win0_1.index t (1 : Fin 2) * 1 + 1 * (y 1).val = (z 1).val; rw [e11, h1]; omega

/-- The weight window's block is the whole weight matrix, at every point. -/
theorem read_2 (c : Dev nD) (t : Fin cfg0.N) :
    (iblk0 V c 2 t : S128x128.Idx → EReal) = (V c main_arg4 : S128x128.Idx → EReal) := by
  obtain ⟨-, -, -, -, e20, e21, -⟩ := idx_facts t
  funext y
  unfold iblk0
  rw [View.read_apply]
  show V c main_arg4 (((cfg0.win 2).blk t).view.emb y) = V c main_arg4 y
  congr 1
  funext a
  apply Fin.ext
  match a with
  | ⟨0, _⟩ => show win0_2.index t (0 : Fin 2) * 128 + 1 * (y 0).val = (y 0).val; rw [e20]; omega
  | ⟨1, _⟩ => show win0_2.index t (1 : Fin 2) * 128 + 1 * (y 1).val = (y 1).val; rw [e21]; omega

/-- The bias window's block is the whole bias vector, at every point. -/
theorem read_3 (c : Dev nD) (t : Fin cfg0.N) :
    (iblk0 V c 3 t : S128.Idx → EReal) = (V c main_arg5 : S128.Idx → EReal) := by
  obtain ⟨-, -, -, -, -, -, e30, -⟩ := idx_facts t
  funext y
  unfold iblk0
  rw [View.read_apply]
  show V c main_arg5 (((cfg0.win 3).blk t).view.emb y) = V c main_arg5 y
  congr 1
  funext a
  apply Fin.ext
  match a with
  | ⟨0, _⟩ => show win0_3.index t (0 : Fin 1) * 128 + 1 * (y 0).val = (y 0).val; rw [e30]; omega

/-- The residual's block at point t is rows 5000·t … of the array. -/
theorem read_4 (c : Dev nD) (t : Fin cfg0.N) (y : S5000x128.Idx) (z : S50000x128.Idx)
    (h0 : (z 0).val = t.val * 5000 + (y 0).val) (h1 : (z 1).val = (y 1).val) :
    (iblk0 V c 4 t : S5000x128.Idx → EReal) y = (V c main_arg0 : S50000x128.Idx → EReal) z := by
  obtain ⟨-, -, -, -, -, -, -, e40, e41, -⟩ := idx_facts t
  unfold iblk0
  rw [View.read_apply]
  show V c main_arg0 (((cfg0.win 4).blk t).view.emb y) = V c main_arg0 z
  congr 1
  funext a
  apply Fin.ext
  match a with
  | ⟨0, _⟩ => show win0_4.index t (0 : Fin 2) * 5000 + 1 * (y 0).val = (z 0).val; rw [e40, h0]; omega
  | ⟨1, _⟩ => show win0_4.index t (1 : Fin 2) * 128 + 1 * (y 1).val = (z 1).val; rw [e41, h1]; omega

/-- What point t writes back is block t of G. -/
theorem flushed_eq (c : Dev nD) (t : Fin cfg0.N) :
    (dat0 (F := Ideal) V c).flushed 5 t = ((cfg0.win 5).blk t).view.read (Elt Ideal) (G V c) := by
  show (cfg0.win 5).cut (grid0.coords t) ((dat0 V c).after 5 t) = _
  rw [after0_5]
  unfold out0_5
  rw [View.canon_unit_zero hz2]
  simp only [View.ld_unit_zero (S := S5000x128) hz2, View.ld_unit_zero (S := S5000x1) hz2,
    View.ld_unit_zero (S := S128x128) hz2, View.ld_unit_zero (S := S128) hz1]
  rw [pay_eq, read_2 V c t, read_3 V c t]
  obtain ⟨-, -, -, -, -, -, -, -, -, e50, e51⟩ := idx_facts t
  funext j
  rw [View.read_apply]
  unfold G
  refine dense_block (M := 50000) (k := 128) (n := 128) (r := 5000) (V c main_v30) (iblk0 V c 0 t) (V c main_v14) (iblk0 V c 1 t)
    (V c main_arg4) _ (V c main_arg0) (iblk0 V c 4 t) t.val
    (fun y z h0 h1 => read_0 V c t y z h0 h1) (fun y z h0 h1 => read_1 V c t y z h0 h1)
    (fun y z h0 h1 => read_4 V c t y z h0 h1) j (((cfg0.win 5).blk t).view.emb j) ?_ ?_
  · show win0_5.index t (0 : Fin 2) * 5000 + 1 * (j 0).val = t.val * 5000 + (j 0).val
    rw [e50]; omega
  · show win0_5.index t (1 : Fin 2) * 128 + 1 * (j 1).val = (j 1).val
    rw [e51]; omega

/-- An index of the output array is in point t's block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v31).slice (win0_5.rect t)).set ↔ _
  rw [View.set_slice_whole, Rect.mem_set_unit]
  exact Iff.rfl

/-- The ten blocks cover the output array: row p lies in the block of point p / 5000. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The output array after the call is G. -/
theorem final (c : Dev nD) : (dat0 (F := Ideal) V c).arrAt 5 cfg0.N = G V c :=
  (dat0 (F := Ideal) V c).arrAt_eq_of_cover 5 (G V c) (fun t _ => flushed_eq V c t) (cover)

end Cert.KernelIdeal.Region0

end
-- ==== Proof.Region1.lean ====
/-
  Call 1 of the idealized kernel: its output array after the call, as one function of the arrays it reads.

  The call runs the dense tail of a graph-convolution layer over ten blocks of 5000 rows. At grid point t the body reads
  rows 5000·t … 5000·t + 4999 of the aggregated features, of the column of row scales and of the residual, the whole weight
  matrix and the whole bias vector, and writes the tail of those rows to the same rows of the output. The ten blocks
  tile the 50000 rows, so after the call the output array is the tail of the whole arrays. Stated for any buffer
  contents V at the call's entry.
-/
import proofs.«122249_j81286551044232_1_alg».proof.Proof.Gen.KernelIdeal.Frame
import proofs.«122249_j81286551044232_1_alg».proof.Proof.LibGcnDense
import Idealize.ShloMosaic.Lib.Pipeline.Value
import Idealize.ShloMosaic.Lib.Tactic

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)
open Cert.LibGcnDense

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The output array after the call: the dense tail of the arrays the call reads, as the call finds them. -/
def G (c : Dev nD) : S50000x128.Idx → EReal :=
  dense (M := 50000) (k := 128) (n := 128) (V c main_v47) (V c main_v14) (V c main_arg6) (fun q => (V c main_arg7 : S128.Idx → EReal) (ix1 q)) (V c main_v31)

/-- The body's stored value is the dense tail of the five loaded blocks. -/
theorem pay_eq (x0 : Vec Ideal S5000x128 .f32) (x1 : Vec Ideal S5000x1 .f32) (x2 : Vec Ideal S128x128 .f32)
    (x3 : Vec Ideal S128 .f32) (x4 : Vec Ideal S5000x128 .f32) :
    k1_pay1 x0 x1 x2 x3 x4 = dense (M := 5000) (k := 128) (n := 128) x0 x1 x2 (fun q => x3 (ix1 q)) x4 := by
  unfold k1_pay1
  simp only [shapeCast_self]
  exact body_eq_dense dot_S5000x128_S128x128_S5000x128_1_0_0_1_n_n rfl bitsLt_bf16_f32 broadcasts_S5000x1_S5000x128
    shapeCasts_S128_S1x128 broadcasts_S1x128_S5000x128 x0 x1 x2 x3 x4

/-- The printed index maps over the grid: the row-blocked windows sit at block row t, the whole-array windows at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- Every block row of the output is some point's. -/
theorem idx_onto : ∀ q0 : Fin 10, ∃ t : Fin cfg1.N, win1_5.index t = ![q0.val, 0] :=
  (by decide +kernel : ∀ q0 : Fin 10, ∃ t : Fin grid1.N, win1_5.index t = ![q0.val, 0])

/-- The aggregated features' block at point t is rows 5000·t … of the array. -/
theorem read_0 (c : Dev nD) (t : Fin cfg1.N) (y : S5000x128.Idx) (z : S50000x128.Idx)
    (h0 : (z 0).val = t.val * 5000 + (y 0).val) (h1 : (z 1).val = (y 1).val) :
    (iblk1 V c 0 t : S5000x128.Idx → EReal) y = (V c main_v47 : S50000x128.Idx → EReal) z := by
  obtain ⟨e00, e01, -⟩ := idx_facts t
  unfold iblk1
  rw [View.read_apply]
  show V c main_v47 (((cfg1.win 0).blk t).view.emb y) = V c main_v47 z
  congr 1
  funext a
  apply Fin.ext
  match a with
  | ⟨0, _⟩ => show win1_0.index t (0 : Fin 2) * 5000 + 1 * (y 0).val = (z 0).val; rw [e00, h0]; omega
  | ⟨1, _⟩ => show win1_0.index t (1 : Fin 2) * 128 + 1 * (y 1).val = (z 1).val; rw [e01, h1]; omega

/-- The scale column's block at point t is rows 5000·t … of the column. -/
theorem read_1 (c : Dev nD) (t : Fin cfg1.N) (y : S5000x1.Idx) (z : S50000x1.Idx)
    (h0 : (z 0).val = t.val * 5000 + (y 0).val) (h1 : (z 1).val = (y 1).val) :
    (iblk1 V c 1 t : S5000x1.Idx → EReal) y = (V c main_v14 : S50000x1.Idx → EReal) z := by
  obtain ⟨-, -, e10, e11, -⟩ := idx_facts t
  unfold iblk1
  rw [View.read_apply]
  show V c main_v14 (((cfg1.win 1).blk t).view.emb y) = V c main_v14 z
  congr 1
  funext a
  apply Fin.ext
  match a with
  | ⟨0, _⟩ => show win1_1.index t (0 : Fin 2) * 5000 + 1 * (y 0).val = (z 0).val; rw [e10, h0]; omega
  | ⟨1, _⟩ => show win1_1.index t (1 : Fin 2) * 1 + 1 * (y 1).val = (z 1).val; rw [e11, h1]; omega

/-- The weight window's block is the whole weight matrix, at every point. -/
theorem read_2 (c : Dev nD) (t : Fin cfg1.N) :
    (iblk1 V c 2 t : S128x128.Idx → EReal) = (V c main_arg6 : S128x128.Idx → EReal) := by
  obtain ⟨-, -, -, -, e20, e21, -⟩ := idx_facts t
  funext y
  unfold iblk1
  rw [View.read_apply]
  show V c main_arg6 (((cfg1.win 2).blk t).view.emb y) = V c main_arg6 y
  congr 1
  funext a
  apply Fin.ext
  match a with
  | ⟨0, _⟩ => show win1_2.index t (0 : Fin 2) * 128 + 1 * (y 0).val = (y 0).val; rw [e20]; omega
  | ⟨1, _⟩ => show win1_2.index t (1 : Fin 2) * 128 + 1 * (y 1).val = (y 1).val; rw [e21]; omega

/-- The bias window's block is the whole bias vector, at every point. -/
theorem read_3 (c : Dev nD) (t : Fin cfg1.N) :
    (iblk1 V c 3 t : S128.Idx → EReal) = (V c main_arg7 : S128.Idx → EReal) := by
  obtain ⟨-, -, -, -, -, -, e30, -⟩ := idx_facts t
  funext y
  unfold iblk1
  rw [View.read_apply]
  show V c main_arg7 (((cfg1.win 3).blk t).view.emb y) = V c main_arg7 y
  congr 1
  funext a
  apply Fin.ext
  match a with
  | ⟨0, _⟩ => show win1_3.index t (0 : Fin 1) * 128 + 1 * (y 0).val = (y 0).val; rw [e30]; omega

/-- The residual's block at point t is rows 5000·t … of the array. -/
theorem read_4 (c : Dev nD) (t : Fin cfg1.N) (y : S5000x128.Idx) (z : S50000x128.Idx)
    (h0 : (z 0).val = t.val * 5000 + (y 0).val) (h1 : (z 1).val = (y 1).val) :
    (iblk1 V c 4 t : S5000x128.Idx → EReal) y = (V c main_v31 : S50000x128.Idx → EReal) z := by
  obtain ⟨-, -, -, -, -, -, -, e40, e41, -⟩ := idx_facts t
  unfold iblk1
  rw [View.read_apply]
  show V c main_v31 (((cfg1.win 4).blk t).view.emb y) = V c main_v31 z
  congr 1
  funext a
  apply Fin.ext
  match a with
  | ⟨0, _⟩ => show win1_4.index t (0 : Fin 2) * 5000 + 1 * (y 0).val = (z 0).val; rw [e40, h0]; omega
  | ⟨1, _⟩ => show win1_4.index t (1 : Fin 2) * 128 + 1 * (y 1).val = (z 1).val; rw [e41, h1]; omega

/-- What point t writes back is block t of G. -/
theorem flushed_eq (c : Dev nD) (t : Fin cfg1.N) :
    (dat1 (F := Ideal) V c).flushed 5 t = ((cfg1.win 5).blk t).view.read (Elt Ideal) (G V c) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S5000x1) hz2,
    View.ld_unit_zero (S := S128x128) hz2, View.ld_unit_zero (S := S128) hz1]
  rw [pay_eq, read_2 V c t, read_3 V c t]
  obtain ⟨-, -, -, -, -, -, -, -, -, e50, e51⟩ := idx_facts t
  funext j
  rw [View.read_apply]
  unfold G
  refine dense_block (M := 50000) (k := 128) (n := 128) (r := 5000) (V c main_v47) (iblk1 V c 0 t) (V c main_v14) (iblk1 V c 1 t)
    (V c main_arg6) _ (V c main_v31) (iblk1 V c 4 t) t.val
    (fun y z h0 h1 => read_0 V c t y z h0 h1) (fun y z h0 h1 => read_1 V c t y z h0 h1)
    (fun y z h0 h1 => read_4 V c t y z h0 h1) j (((cfg1.win 5).blk t).view.emb j) ?_ ?_
  · show win1_5.index t (0 : Fin 2) * 5000 + 1 * (j 0).val = t.val * 5000 + (j 0).val
    rw [e50]; omega
  · show win1_5.index t (1 : Fin 2) * 128 + 1 * (j 1).val = (j 1).val
    rw [e51]; omega

/-- An index of the output array is in point t's block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v48).slice (win1_5.rect t)).set ↔ _
  rw [View.set_slice_whole, Rect.mem_set_unit]
  exact Iff.rfl

/-- The ten blocks cover the output array: row p lies in the block of point p / 5000. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The output array after the call is G. -/
theorem final (c : Dev nD) : (dat1 (F := Ideal) V c).arrAt 5 cfg1.N = G V c :=
  (dat1 (F := Ideal) V c).arrAt_eq_of_cover 5 (G V c) (fun t _ => flushed_eq V c t) (cover)

end Cert.KernelIdeal.Region1

end
-- ==== Proof.Network.lean ====
/-
  The two-layer graph convolution as one function of the arguments, and the reference's result read as it.

  With out(v) and in(v) the out- and in-degree of node v clamped below at 1, one layer maps the node features h to

      h'(v, q) = max( (∑ c, (A h)(v, c) · in(v)^(-1/2) · W(c, q)) + b(q), 0 ) + h(v, q),
      (A h)(v, ·) = ∑ over edges e with dst(e) = v of  w(e) · out(src(e))^(-1/2) · h(src(e), ·),

  where the degree counts, the gather by source and the sum by destination are the host's scatter-add, gather and
  scatter-add, kept here as those operations (both programs spell them identically). The network is two such layers with the
  same graph and its own weights each. The reference's result term is this function of its arguments: its two
  clamped, bias-added matrix products are the dense tail of LibGcnDense in the host's spelling.
-/
import proofs.«122249_j81286551044232_1_alg».proof.Proof.Gen.ReferenceIdeal.Run
import proofs.«122249_j81286551044232_1_alg».proof.Proof.LibGcnDense

set_option maxRecDepth 16384

noncomputable section

namespace Cert.Gcn

open Cert.ReferenceIdeal Cert.ReferenceIdeal.Gen
open Idealize.ShloMosaic Idealize.ShloMosaic.TcCoe Idealize.ShloMosaic.ValueIdx Idealize.SL.Sem
open Cert.LibGcnDense

/-- The degree normaliser of an index vector: the count of each node among the indices, clamped below at 1, to the
    power -1/2. -/
def degNorm (idx : IVec S1600000 32) : FVec Ideal S50000 .f32 :=
  Host.rsqrt (F := Ideal) (maximumf (Host.scatterAdd (F := Ideal) scatter_S50000_S1600000x1_S1600000_n_0_0_1
      (broadcastInDim S50000 ![] bcast_S_S50000 (constant (F := Ideal) S_ .f32 0x00000000#32))
      (broadcastInDim S1600000x1 ![0] bcast_S1600000_S1600000x1_0 idx)
      (broadcastInDim S1600000 ![] bcast_S_S1600000 (constant (F := Ideal) S_ .f32 0x3F800000#32)))
    (broadcastInDim S50000 ![] bcast_S_S50000 (constant (F := Ideal) S_ .f32 0x3F800000#32)))

/-- A per-node vector as a one-lane column. -/
def column (v : FVec Ideal S50000 .f32) : FVec Ideal S50000x1 .f32 :=
  broadcastInDim S50000x1 ![0] bcast_S50000_S50000x1_0 v

/-- The weighted neighbour aggregation: the features scaled by the source normaliser, gathered by source (a negative
    index wrapped once), scaled by the edge weight, and summed by destination. -/
def aggregate (h : FVec Ideal S50000x128 .f32) (outn : FVec Ideal S50000 .f32) (ew : FVec Ideal S1600000 .f32)
    (src dst : IVec S1600000 32) : FVec Ideal S50000x128 .f32 :=
  Host.scatterAdd (F := Ideal) scatter_S50000x128_S1600000x1_S1600000x128_1_0_0_1
    (broadcastInDim S50000x128 ![] bcast_S_S50000x128 (constant (F := Ideal) S_ .f32 0x00000000#32))
    (broadcastInDim S1600000x1 ![0] bcast_S1600000_S1600000x1_0 dst)
    (mulf (Host.gather gather_S50000x128_S1600000x1_S1600000x128_1_0_n_n_0_1_1128
        (mulf h (broadcastInDim S50000x128 ![0, 1] bcast_S50000x1_S50000x128_0_1 (column outn)))
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 50000#32))) src)))
      (broadcastInDim S1600000x128 ![0, 1] bcast_S1600000x1_S1600000x128_0_1
        (broadcastInDim S1600000x1 ![0] bcast_S1600000_S1600000x1_0 ew)))

/-- One layer's dense tail over the whole node set. -/
def layer (agg : FVec Ideal S50000x128 .f32) (col : FVec Ideal S50000x1 .f32) (W : FVec Ideal S128x128 .f32)
    (b : FVec Ideal S128 .f32) (h : FVec Ideal S50000x128 .f32) : FVec Ideal S50000x128 .f32 :=
  dense (M := 50000) (k := 128) (n := 128) agg col W (fun q => b (ix1 q)) h

/-- The two-layer network. -/
def network (x : FVec Ideal S50000x128 .f32) (ew : FVec Ideal S1600000 .f32) (src dst : IVec S1600000 32)
    (W1 : FVec Ideal S128x128 .f32) (b1 : FVec Ideal S128 .f32) (W2 : FVec Ideal S128x128 .f32) (b2 : FVec Ideal S128 .f32) :
    FVec Ideal S50000x128 .f32 :=
  layer (aggregate (layer (aggregate x (degNorm src) ew src dst) (column (degNorm dst)) W1 b1 x) (degNorm src) ew src dst)
    (column (degNorm dst)) W2 b2 (layer (aggregate x (degNorm src) ew src dst) (column (degNorm dst)) W1 b1 x)

/-- The host's spelling of a layer's dense tail: the scaled rows times the weights by the host's matrix product, the bias
    vector broadcast to a row and then over the rows, the clamp at a broadcast zero, the residual added. -/
def hostLayer (agg : FVec Ideal S50000x128 .f32) (col : FVec Ideal S50000x1 .f32) (W : FVec Ideal S128x128 .f32)
    (b : FVec Ideal S128 .f32) (h : FVec Ideal S50000x128 .f32) : FVec Ideal S50000x128 .f32 :=
  addf (maximumf
      (addf (Host.dotGeneral (F := Ideal) dot_S50000x128_S128x128_S50000x128_1_0_0_1_n_n none
          (mulf agg (broadcastInDim S50000x128 ![0, 1] bcast_S50000x1_S50000x128_0_1 col)) W)
        (broadcastInDim S50000x128 ![0, 1] bcast_S1x128_S50000x128_0_1 (broadcastInDim S1x128 ![1] bcast_S128_S1x128_1 b)))
      (broadcastInDim S50000x128 ![] bcast_S_S50000x128 (constant (F := Ideal) S_ .f32 0x00000000#32))) h

/-- The host's spelling of a layer's dense tail is the layer. -/
theorem hostLayer_eq : hostLayer = layer := by
  funext agg col W b h
  unfold hostLayer layer
  exact host_eq_dense (M := 50000) (k := 128) (n := 128) dot_S50000x128_S128x128_S50000x128_1_0_0_1_n_n rfl
    bcast_S50000x1_S50000x128_0_1 bcast_S128_S1x128_1 bcast_S1x128_S50000x128_0_1 bcast_S_S50000x128 agg col W b h

/-- The network in the host's spelling. -/
def hostNetwork (x : FVec Ideal S50000x128 .f32) (ew : FVec Ideal S1600000 .f32) (src dst : IVec S1600000 32)
    (W1 : FVec Ideal S128x128 .f32) (b1 : FVec Ideal S128 .f32) (W2 : FVec Ideal S128x128 .f32) (b2 : FVec Ideal S128 .f32) :
    FVec Ideal S50000x128 .f32 :=
  hostLayer (aggregate (hostLayer (aggregate x (degNorm src) ew src dst) (column (degNorm dst)) W1 b1 x) (degNorm src) ew src dst)
    (column (degNorm dst)) W2 b2 (hostLayer (aggregate x (degNorm src) ew src dst) (column (degNorm dst)) W1 b1 x)

theorem hostNetwork_eq : hostNetwork = network := by
  unfold hostNetwork network
  rw [hostLayer_eq]

set_option maxRecDepth 65536 in
/-- The reference's result term is the network of its arguments. -/
theorem res_eq (m : (ℓ : Loc nD τ sig) → Buf (Elt Ideal) ℓ) (c : Dev nD) :
    Cert.ReferenceIdeal.Value.res_main_v63 (F := Ideal) m c
      = network (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  rw [← hostNetwork_eq]
  unfold Cert.ReferenceIdeal.Value.res_main_v63 hostNetwork hostLayer aggregate column degNorm
  rfl

end Cert.Gcn

end
-- ==== Proof.HostStretch0.lean ====
/-
  The host operations before the first call, read from any buffer contents: the out-degree normaliser, the in-degree
  normaliser as a column, and the first layer's neighbour aggregation of the input features, each as the network's
  building block of the argument buffers' contents.
-/
import proofs.«122249_j81286551044232_1_alg».proof.Proof.Gen.KernelIdeal.Launch
import proofs.«122249_j81286551044232_1_alg».proof.Proof.Network
import Idealize.ShloMosaic.Lib.StableHlo.Run

set_option maxRecDepth 16384

noncomputable section

namespace Cert.KernelIdeal.HostSide

open Cert.KernelIdeal Cert.KernelIdeal.Gen
open Idealize.ShloMosaic Idealize.ShloMosaic.TcCoe Idealize.ShloMosaic.ValueIdx Idealize.SL.Sem
open Idealize.ShloMosaic.StableHlo
open Idealize.ShloMosaic.Pipeline (Dat)

/-! ## The first host stretch, from any contents -/

section Stretch0
variable (W : Valuation τ sig (Elt Ideal))

set_option maxHeartbeats 4000000 in
/-- The out-degree normaliser. -/
theorem ops0_outn : StableHlo.after (hostOps0 (F := Ideal)) W (Proc.devRef .tc main_v6)
    = Cert.Gcn.degNorm (W (Proc.devRef .tc main_arg2)) := by
  after_results_simp <;> rfl

set_option maxHeartbeats 4000000 in
/-- The in-degree normaliser, as a column. -/
theorem ops0_col : StableHlo.after (hostOps0 (F := Ideal)) W (Proc.devRef .tc main_v14)
    = Cert.Gcn.column (Cert.Gcn.degNorm (W (Proc.devRef .tc main_arg3))) := by
  after_results_simp <;> rfl

set_option maxHeartbeats 4000000 in
/-- The first layer's aggregation of the input features. -/
theorem ops0_agg : StableHlo.after (hostOps0 (F := Ideal)) W (Proc.devRef .tc main_v30)
    = Cert.Gcn.aggregate (W (Proc.devRef .tc main_arg0)) (Cert.Gcn.degNorm (W (Proc.devRef .tc main_arg2)))
        (W (Proc.devRef .tc main_arg1)) (W (Proc.devRef .tc main_arg2)) (W (Proc.devRef .tc main_arg3)) := by
  after_results_simp <;> rfl

end Stretch0

end Cert.KernelIdeal.HostSide

end
-- ==== Proof.HostStretch0Args.lean ====
/-
  The host operations before the first call write no argument buffer: from any buffer contents, each argument buffer
  holds afterwards what it held before.
-/
import proofs.«122249_j81286551044232_1_alg».proof.Proof.Gen.KernelIdeal.Launch
import proofs.«122249_j81286551044232_1_alg».proof.Proof.Network
import Idealize.ShloMosaic.Lib.StableHlo.Run

set_option maxRecDepth 16384

noncomputable section

namespace Cert.KernelIdeal.HostSide

open Cert.KernelIdeal Cert.KernelIdeal.Gen
open Idealize.ShloMosaic Idealize.ShloMosaic.TcCoe Idealize.ShloMosaic.ValueIdx Idealize.SL.Sem
open Idealize.ShloMosaic.StableHlo
open Idealize.ShloMosaic.Pipeline (Dat)

/-! ## The first host stretch leaves the arguments in place -/

section Stretch0
variable (W : Valuation τ sig (Elt Ideal))

set_option maxHeartbeats 4000000 in
/-- The stretch writes no argument. -/
theorem ops0_arg0 : StableHlo.after (hostOps0 (F := Ideal)) W (Proc.devRef .tc main_arg0) = W (Proc.devRef .tc main_arg0) := by
  after_results_simp <;> rfl
set_option maxHeartbeats 4000000 in
theorem ops0_arg1 : StableHlo.after (hostOps0 (F := Ideal)) W (Proc.devRef .tc main_arg1) = W (Proc.devRef .tc main_arg1) := by
  after_results_simp <;> rfl
set_option maxHeartbeats 4000000 in
theorem ops0_arg2 : StableHlo.after (hostOps0 (F := Ideal)) W (Proc.devRef .tc main_arg2) = W (Proc.devRef .tc main_arg2) := by
  after_results_simp <;> rfl
set_option maxHeartbeats 4000000 in
theorem ops0_arg3 : StableHlo.after (hostOps0 (F := Ideal)) W (Proc.devRef .tc main_arg3) = W (Proc.devRef .tc main_arg3) := by
  after_results_simp <;> rfl
set_option maxHeartbeats 4000000 in
theorem ops0_arg4 : StableHlo.after (hostOps0 (F := Ideal)) W (Proc.devRef .tc main_arg4) = W (Proc.devRef .tc main_arg4) := by
  after_results_simp <;> rfl
set_option maxHeartbeats 4000000 in
theorem ops0_arg5 : StableHlo.after (hostOps0 (F := Ideal)) W (Proc.devRef .tc main_arg5) = W (Proc.devRef .tc main_arg5) := by
  after_results_simp <;> rfl
set_option maxHeartbeats 4000000 in
theorem ops0_arg6 : StableHlo.after (hostOps0 (F := Ideal)) W (Proc.devRef .tc main_arg6) = W (Proc.devRef .tc main_arg6) := by
  after_results_simp <;> rfl
set_option maxHeartbeats 4000000 in
theorem ops0_arg7 : StableHlo.after (hostOps0 (F := Ideal)) W (Proc.devRef .tc main_arg7) = W (Proc.devRef .tc main_arg7) := by
  after_results_simp <;> rfl

end Stretch0

end Cert.KernelIdeal.HostSide

end
-- ==== Proof.HostStretch1.lean ====
/-
  The host operations between the two calls, read from any buffer contents: the second layer's neighbour aggregation of
  the first call's output; and the buffers the second call reads besides, which the stretch leaves in place.
-/
import proofs.«122249_j81286551044232_1_alg».proof.Proof.Gen.KernelIdeal.Launch
import proofs.«122249_j81286551044232_1_alg».proof.Proof.Network
import Idealize.ShloMosaic.Lib.StableHlo.Run

set_option maxRecDepth 16384

noncomputable section

namespace Cert.KernelIdeal.HostSide

open Cert.KernelIdeal Cert.KernelIdeal.Gen
open Idealize.ShloMosaic Idealize.ShloMosaic.TcCoe Idealize.ShloMosaic.ValueIdx Idealize.SL.Sem
open Idealize.ShloMosaic.StableHlo
open Idealize.ShloMosaic.Pipeline (Dat)

/-! ## The second host stretch, from any contents -/

section Stretch1
variable (W : Valuation τ sig (Elt Ideal))

set_option maxHeartbeats 4000000 in
/-- The second layer's aggregation of the first call's output. -/
theorem ops1_agg : StableHlo.after (hostOps1 (F := Ideal)) W (Proc.devRef .tc main_v47)
    = Cert.Gcn.aggregate (W (Proc.devRef .tc main_v31)) (W (Proc.devRef .tc main_v6))
        (W (Proc.devRef .tc main_arg1)) (W (Proc.devRef .tc main_arg2)) (W (Proc.devRef .tc main_arg3)) := by
  after_results_simp <;> rfl

set_option maxHeartbeats 4000000 in
/-- The stretch leaves the column of in-degree normalisers, the first call's output and the arguments in place. -/
theorem ops1_col : StableHlo.after (hostOps1 (F := Ideal)) W (Proc.devRef .tc main_v14) = W (Proc.devRef .tc main_v14) := by
  after_results_simp <;> rfl
set_option maxHeartbeats 4000000 in
theorem ops1_h : StableHlo.after (hostOps1 (F := Ideal)) W (Proc.devRef .tc main_v31) = W (Proc.devRef .tc main_v31) := by
  after_results_simp <;> rfl
set_option maxHeartbeats 4000000 in
theorem ops1_arg6 : StableHlo.after (hostOps1 (F := Ideal)) W (Proc.devRef .tc main_arg6) = W (Proc.devRef .tc main_arg6) := by
  after_results_simp <;> rfl
set_option maxHeartbeats 4000000 in
theorem ops1_arg7 : StableHlo.after (hostOps1 (F := Ideal)) W (Proc.devRef .tc main_arg7) = W (Proc.devRef .tc main_arg7) := by
  after_results_simp <;> rfl

end Stretch1

end Cert.KernelIdeal.HostSide

end
-- ==== Proof.HostSide.lean ====
/-
  The idealized kernel's result as the two-layer network of its arguments.

  @main's buffer contents are walked from launch to return: the first host stretch computes the two degree
  normalisers, the in-degree one as a column, and the first layer's neighbour aggregation of the input features; the
  first call writes the first layer's dense tail; the second host stretch aggregates that result again; the second call
  writes the second layer's dense tail, which is the program's result. Each host stretch is read operation by operation for
  the buffers the next call reads, each call's output array is the dense tail of the arrays it reads, and no stretch and no
  call changes a buffer it does not write.
-/
import proofs.«122249_j81286551044232_1_alg».proof.Proof.Gen.KernelIdeal.Frame
import proofs.«122249_j81286551044232_1_alg».proof.Proof.Region0
import proofs.«122249_j81286551044232_1_alg».proof.Proof.Region1
import proofs.«122249_j81286551044232_1_alg».proof.Proof.Network
import proofs.«122249_j81286551044232_1_alg».proof.Proof.HostStretch0
import proofs.«122249_j81286551044232_1_alg».proof.Proof.HostStretch0Args
import proofs.«122249_j81286551044232_1_alg».proof.Proof.HostStretch1
import Idealize.ShloMosaic.Lib.StableHlo.Run

set_option maxRecDepth 16384

noncomputable section

namespace Cert.KernelIdeal.HostSide

open Cert.KernelIdeal Cert.KernelIdeal.Gen
open Idealize.ShloMosaic Idealize.ShloMosaic.TcCoe Idealize.ShloMosaic.ValueIdx Idealize.SL.Sem
open Idealize.ShloMosaic.StableHlo
open Idealize.ShloMosaic.Pipeline (Dat)

/-! ## The walk from launch to return -/

section Walk
variable (m : (ℓ : Loc nD τ sig) → Buf (Elt Ideal) ℓ) (ρ : Dev nD → PrngReg)

/-- The first layer's value: the dense tail of the aggregated input features, with the input features as the residual. -/
def h1 (c : Dev nD) : FVec Ideal Cert.ReferenceIdeal.S50000x128 .f32 :=
  Cert.Gcn.layer
    (Cert.Gcn.aggregate (m ((c.tc : Thread nD τ).loc main_arg0)) (Cert.Gcn.degNorm (m ((c.tc : Thread nD τ).loc main_arg2)))
      (m ((c.tc : Thread nD τ).loc main_arg1)) (m ((c.tc : Thread nD τ).loc main_arg2)) (m ((c.tc : Thread nD τ).loc main_arg3)))
    (Cert.Gcn.column (Cert.Gcn.degNorm (m ((c.tc : Thread nD τ).loc main_arg3))))
    (m ((c.tc : Thread nD τ).loc main_arg4)) (m ((c.tc : Thread nD τ).loc main_arg5)) (m ((c.tc : Thread nD τ).loc main_arg0))

/-- After the first call its output array holds the first layer's value. -/
theorem W2_h (c : Dev nD) : W2 m ρ c (Proc.devRef .tc main_v31) = h1 m c := by
  refine (W2_arr m ρ c 5).trans ((Region0.final (V1 m ρ) c).trans ?_)
  unfold Region0.G h1 Cert.Gcn.layer
  show Cert.LibGcnDense.dense (M := 50000) (k := 128) (n := 128)
      (StableHlo.after (hostOps0 (F := Ideal)) (W0 m ρ c) (Proc.devRef .tc main_v30))
      (StableHlo.after (hostOps0 (F := Ideal)) (W0 m ρ c) (Proc.devRef .tc main_v14))
      (StableHlo.after (hostOps0 (F := Ideal)) (W0 m ρ c) (Proc.devRef .tc main_arg4))
      (fun q => (StableHlo.after (hostOps0 (F := Ideal)) (W0 m ρ c) (Proc.devRef .tc main_arg5) : S128.Idx → EReal) (ix1 q))
      (StableHlo.after (hostOps0 (F := Ideal)) (W0 m ρ c) (Proc.devRef .tc main_arg0)) = _
  rw [ops0_agg, ops0_col, ops0_arg4, ops0_arg5, ops0_arg0]

/-- The first call leaves the out-degree normaliser in place. -/
theorem W2_outn (c : Dev nD) : W2 m ρ c (Proc.devRef .tc main_v6) = Cert.Gcn.degNorm (m ((c.tc : Thread nD τ).loc main_arg2)) :=
  (W2_of_ne m ρ c main_v6 (by decide)).trans ((ops0_outn (W0 m ρ c)).trans rfl)

/-- The first call leaves the column of in-degree normalisers, one of its inputs, in place. -/
theorem W2_col (c : Dev nD) : W2 m ρ c (Proc.devRef .tc main_v14)
    = Cert.Gcn.column (Cert.Gcn.degNorm (m ((c.tc : Thread nD τ).loc main_arg3))) :=
  (W2_arr m ρ c 1).trans ((((dat0 (V1 m ρ) c).arrAt_in 1 rfl _).trans (A_eq0 (V1 m ρ) c 1)).trans
    ((ops0_col (W0 m ρ c)).trans rfl))

/-- The first call and the stretch before it leave the arguments the second layer reads in place. -/
theorem W2_arg1 (c : Dev nD) : W2 m ρ c (Proc.devRef .tc main_arg1) = m ((c.tc : Thread nD τ).loc main_arg1) :=
  (W2_of_ne m ρ c main_arg1 (by decide)).trans ((ops0_arg1 (W0 m ρ c)).trans rfl)
theorem W2_arg2 (c : Dev nD) : W2 m ρ c (Proc.devRef .tc main_arg2) = m ((c.tc : Thread nD τ).loc main_arg2) :=
  (W2_of_ne m ρ c main_arg2 (by decide)).trans ((ops0_arg2 (W0 m ρ c)).trans rfl)
theorem W2_arg3 (c : Dev nD) : W2 m ρ c (Proc.devRef .tc main_arg3) = m ((c.tc : Thread nD τ).loc main_arg3) :=
  (W2_of_ne m ρ c main_arg3 (by decide)).trans ((ops0_arg3 (W0 m ρ c)).trans rfl)
theorem W2_arg6 (c : Dev nD) : W2 m ρ c (Proc.devRef .tc main_arg6) = m ((c.tc : Thread nD τ).loc main_arg6) :=
  (W2_of_ne m ρ c main_arg6 (by decide)).trans ((ops0_arg6 (W0 m ρ c)).trans rfl)
theorem W2_arg7 (c : Dev nD) : W2 m ρ c (Proc.devRef .tc main_arg7) = m ((c.tc : Thread nD τ).loc main_arg7) :=
  (W2_of_ne m ρ c main_arg7 (by decide)).trans ((ops0_arg7 (W0 m ρ c)).trans rfl)

/-- After the second call its output array, the program's result, holds the network of the arguments. -/
theorem W4_result (c : Dev nD) : W4 m ρ c (Proc.devRef .tc main_v48)
    = Cert.Gcn.network (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7)) := by
  refine (W4_arr m ρ c 5).trans ((Region1.final (V3 m ρ) c).trans ?_)
  unfold Region1.G
  show Cert.LibGcnDense.dense (M := 50000) (k := 128) (n := 128)
      (StableHlo.after (hostOps1 (F := Ideal)) (W2 m ρ c) (Proc.devRef .tc main_v47))
      (StableHlo.after (hostOps1 (F := Ideal)) (W2 m ρ c) (Proc.devRef .tc main_v14))
      (StableHlo.after (hostOps1 (F := Ideal)) (W2 m ρ c) (Proc.devRef .tc main_arg6))
      (fun q => (StableHlo.after (hostOps1 (F := Ideal)) (W2 m ρ c) (Proc.devRef .tc main_arg7) : S128.Idx → EReal) (ix1 q))
      (StableHlo.after (hostOps1 (F := Ideal)) (W2 m ρ c) (Proc.devRef .tc main_v31)) = _
  rw [ops1_agg, ops1_col, ops1_arg6, ops1_arg7, ops1_h, W2_h, W2_outn, W2_col, W2_arg1, W2_arg2, W2_arg3, W2_arg6, W2_arg7]
  rfl

end Walk

end Cert.KernelIdeal.HostSide

end
-- ==== Proof.lean ====
/-
  A two-layer graph convolution: a Pallas kernel for each layer's dense tail against a plain jnp reference, at the ideal
  values.

  Both programs compute, for node features x, edge weights w, edge endpoints src and dst, and per-layer weights W and
  biases b,

      h ↦ max( ((A h) ⊙ in^(-1/2)) · W + b, 0 ) + h          applied twice,

  where (A h)(v) = ∑ over edges e into v of w(e) · out(src e)^(-1/2) · h(src e) and in, out are the in- and out-degrees
  clamped below at 1. The degree counts, the gather by source and the sum by destination are host operations in both
  programs, spelt identically, and are kept as those operations. The kernel program runs each layer's tail (row scaling,
  matrix product, bias, clamp at zero, residual) as a call over ten blocks of 5000 rows with both factors of the product
  rounded to bf16, which changes nothing at the ideal values; the reference runs the same tail as host operations over all
  50000 rows. Row p of the tail depends only on row p of its row-indexed operands, so the ten blocks' results are the rows of
  the whole-array tail (Region0, Region1 over LibGcnDense), the kernel program's result is the network of its arguments
  (HostSide, over the run of KernelRun), and so is the reference's (Network). No law of the extended reals beyond reading a
  matrix product as a sum is used, and the finiteness of the inputs is not needed.

  The three frames are the generated ones (the reference's is its generated run with the result dropped); the
  idealization rewrote nothing, so there is nothing to preserve.
-/
import proofs.«122249_j81286551044232_1_alg».proof.Defs
import proofs.«122249_j81286551044232_1_alg».proof.Proof.Gen.Kernel
import proofs.«122249_j81286551044232_1_alg».proof.Proof.Gen.Kernel.Skeleton
import proofs.«122249_j81286551044232_1_alg».proof.Proof.Gen.Kernel.Launch
import proofs.«122249_j81286551044232_1_alg».proof.Proof.Gen.Kernel.Points
import proofs.«122249_j81286551044232_1_alg».proof.Proof.Gen.Kernel.Frame
import proofs.«122249_j81286551044232_1_alg».proof.Proof.Gen.KernelIdeal
import proofs.«122249_j81286551044232_1_alg».proof.Proof.Gen.KernelIdeal.Skeleton
import proofs.«122249_j81286551044232_1_alg».proof.Proof.Gen.KernelIdeal.Launch
import proofs.«122249_j81286551044232_1_alg».proof.Proof.Gen.KernelIdeal.Points
import proofs.«122249_j81286551044232_1_alg».proof.Proof.Gen.KernelIdeal.Frame
import proofs.«122249_j81286551044232_1_alg».proof.Proof.Gen.ReferenceIdeal
import proofs.«122249_j81286551044232_1_alg».proof.Proof.Gen.Pre_finite_inputs
import proofs.«122249_j81286551044232_1_alg».proof.Proof.Gen.ReferenceIdeal.Run
import proofs.«122249_j81286551044232_1_alg».proof.Proof.KernelRun
import proofs.«122249_j81286551044232_1_alg».proof.Proof.HostSide
import proofs.«122249_j81286551044232_1_alg».proof.Proof.Network
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the result at the two-layer network of the arguments, which agree. -/
theorem algebraic : Cert.algebraic_KernelIdeal_ReferenceIdeal := by
  intro m ρ m' ρ' _ hagree
  refine ⟨fun c => Cert.Gcn.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.HostSide.W4_result m ρ c), (h c).2⟩)
      (Cert.KernelIdeal.Run.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [Cert.Gcn.res_eq, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
